-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg11 : FVec F S4096x4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  main_v58

def fn_part2 {F : FTy → Type} [FloatOps F] (main_arg7 : FVec F S4096x4096 .f32) (main_arg8 : FVec F S4096x4096 .f32) (main_arg9 : FVec F S4096x4096 .f32) (main_arg10 : FVec F S4096x4096 .f32) (main_arg11 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x4096 .f32) (main_arg1 : FVec F S32x4096 .f32) (main_arg2 : FVec F S32x4096 .f32) (main_arg3 : FVec F S4096x4096 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_v13 main_v16
-- ==== Kernel.lean ====
abbrev S32x4096 : Shape := ⟨2, ![32, 4096]⟩
abbrev S4096x4096 : Shape := ⟨2, ![4096, 4096]⟩
abbrev S512x4096 : Shape := ⟨2, ![512, 4096]⟩
abbrev S32x512 : Shape := ⟨2, ![32, 512]⟩
abbrev S128x4096 : Shape := ⟨2, ![128, 4096]⟩
abbrev S32x128 : Shape := ⟨2, ![32, 128]⟩
abbrev S32x256 : Shape := ⟨2, ![32, 256]⟩
abbrev S256x4096 : Shape := ⟨2, ![256, 4096]⟩

abbrev nBuf : Space → Nat
  | .hbm => 16
  | .vmem => 38
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S32x4096, .f32⟩
  | .hbm, ⟨13, _⟩ => ⟨S32x4096, .f32⟩
  | .hbm, ⟨14, _⟩ => ⟨S32x4096, .f32⟩
  | .hbm, ⟨15, _⟩ => ⟨S32x4096, .f32⟩
  | .local _ .vmem, ⟨0, _⟩ => ⟨S32x4096, .f32⟩
  | .local _ .vmem, ⟨1, _⟩ => ⟨S512x4096, .f32⟩
  | .local _ .vmem, ⟨2, _⟩ => ⟨S512x4096, .f32⟩
  | .local _ .vmem, ⟨3, _⟩ => ⟨S32x512, .f32⟩
  | .local _ .vmem, ⟨4, _⟩ => ⟨S32x512, .f32⟩
  | .local _ .vmem, ⟨5, _⟩ => ⟨S32x4096, .f32⟩
  | .local _ .vmem, ⟨6, _⟩ => ⟨S32x4096, .f32⟩
  | .local _ .vmem, ⟨7, _⟩ => ⟨S32x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S32x128, .f32⟩
  | .local _ .vmem, ⟨21, _⟩ => ⟨S32x128, .f32⟩
  | .local _ .vmem, ⟨22, _⟩ => ⟨S32x128, .f32⟩
  | .local _ .vmem, ⟨23, _⟩ => ⟨S32x128, .f32⟩
  | .local _ .vmem, ⟨24, _⟩ => ⟨S32x4096, .f32⟩
  | .local _ .vmem, ⟨25, _⟩ => ⟨S32x4096, .f32⟩
  | .local _ .vmem, ⟨26, _⟩ => ⟨S32x256, .f32⟩
  | .local _ .vmem, ⟨27, _⟩ => ⟨S32x256, .f32⟩
  | .local _ .vmem, ⟨28, _⟩ => ⟨S32x256, .f32⟩
  | .local _ .vmem, ⟨29, _⟩ => ⟨S32x256, .f32⟩
  | .local _ .vmem, ⟨30, _⟩ => ⟨S32x256, .f32⟩
  | .local _ .vmem, ⟨31, _⟩ => ⟨S32x256, .f32⟩
  | .local _ .vmem, ⟨32, _⟩ => ⟨S256x4096, .f32⟩
  | .local _ .vmem, ⟨33, _⟩ => ⟨S256x4096, .f32⟩
  | .local _ .vmem, ⟨34, _⟩ => ⟨S256x4096, .f32⟩
  | .local _ .vmem, ⟨35, _⟩ => ⟨S256x4096, .f32⟩
  | .local _ .vmem, ⟨36, _⟩ => ⟨S32x256, .f32⟩
  | .local _ .vmem, ⟨37, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc2_sem0_0 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S32x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S32x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S32x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S32x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S32x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S32x512_S32x512_0_0 : ∀ a, (![0, 0] : Fin 2 → Nat) a + S32x512.size a ≤ S32x512.size a
  h_S32x512 : 0 < S32x512.numel
  shapeCasts_S32x4096_S32x4096 : S32x4096.ShapeCasts S32x4096
  inb_S128x4096_S128x4096_0_0 : ∀ a, (![0, 0] : Fin 2 → Nat) a + S128x4096.size a ≤ S128x4096.size a
  h_S128x4096 : 0 < S128x4096.numel
  inb_S32x128_S32x128_0_0 : ∀ a, (![0, 0] : Fin 2 → Nat) a + S32x128.size a ≤ S32x128.size a
  h_S32x128 : 0 < S32x128.numel
  inb_S256x4096_S256x4096_0_0 : ∀ a, (![0, 0] : Fin 2 → Nat) a + S256x4096.size a ≤ S256x4096.size a
  h_S256x4096 : 0 < S256x4096.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  dot_S32x4096_S512x4096_S32x512_1_1_0_0_n_n_wf : DotDims.WF S32x4096 S512x4096 S32x512 [1] [1] [0] [0] [] []
  dot_S32x4096_S128x4096_S32x128_1_1_0_0_n_n_wf : DotDims.WF S32x4096 S128x4096 S32x128 [1] [1] [0] [0] [] []
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x4096.size a
  hwx0_2 : ∀ i : grid0.Coords, EltTy.bits .f32 = 32 ∨ (Rect.block (s := S32x4096) S32x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x4096.size a
  hwx1_0 : ∀ i : grid1.Coords, EltTy.bits .f32 = 32 ∨ (Rect.block (s := S32x4096) S32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .f32 = 32 ∨ (Rect.block (s := S32x4096) S32x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x4096.size a ≤ S32x4096.size a
  hwx1_2 : ∀ i : grid1.Coords, EltTy.bits .f32 = 32 ∨ (Rect.block (s := S32x4096) S32x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S4096x4096.size a
  hwx1_3 : ∀ i : grid1.Coords, EltTy.bits .f32 = 32 ∨ (Rect.block (s := S4096x4096) S128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S4096x4096.size a
  hwx1_4 : ∀ i : grid1.Coords, EltTy.bits .f32 = 32 ∨ (Rect.block (s := S4096x4096) S128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S4096x4096.size a
  hwx1_5 : ∀ i : grid1.Coords, EltTy.bits .f32 = 32 ∨ (Rect.block (s := S4096x4096) S128x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x4096.size a ≤ S4096x4096.size a
  hwx1_6 : ∀ i : grid1.Coords, EltTy.bits .f32 = 32 ∨ (Rect.block (s := S4096x4096) S128x4096.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x4096.size a ≤ S4096x4096.size a
  hwx1_7 : ∀ i : grid1.Coords, EltTy.bits .f32 = 32 ∨ (Rect.block (s := S4096x4096) S128x4096.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x4096.size a ≤ S4096x4096.size a
  hwx1_8 : ∀ i : grid1.Coords, EltTy.bits .f32 = 32 ∨ (Rect.block (s := S4096x4096) S128x4096.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S32x128.size a ≤ S32x4096.size a
  hwx1_9 : ∀ i : grid1.Coords, EltTy.bits .f32 = 32 ∨ (Rect.block (s := S32x4096) S32x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S32x128.size a ≤ S32x4096.size a
  hwx1_10 : ∀ i : grid1.Coords, EltTy.bits .f32 = 32 ∨ (Rect.block (s := S32x4096) S32x128.size (cc1_transform_10 i) (hinb1_10 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S32x4096.size a ≤ S32x4096.size a
  hwx2_0 : ∀ i : grid2.Coords, EltTy.bits .f32 = 32 ∨ (Rect.block (s := S32x4096) S32x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x4096.size a ≤ S32x4096.size a
  hwx2_1 : ∀ i : grid2.Coords, EltTy.bits .f32 = 32 ∨ (Rect.block (s := S32x4096) S32x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x256.size a ≤ S32x4096.size a
  hwx2_2 : ∀ i : grid2.Coords, EltTy.bits .f32 = 32 ∨ (Rect.block (s := S32x4096) S32x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x256.size a ≤ S32x4096.size a
  hwx2_3 : ∀ i : grid2.Coords, EltTy.bits .f32 = 32 ∨ (Rect.block (s := S32x4096) S32x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S32x256.size a ≤ S32x4096.size a
  hwx2_4 : ∀ i : grid2.Coords, EltTy.bits .f32 = 32 ∨ (Rect.block (s := S32x4096) S32x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x4096.size a ≤ S4096x4096.size a
  hwx2_5 : ∀ i : grid2.Coords, EltTy.bits .f32 = 32 ∨ (Rect.block (s := S4096x4096) S256x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x4096.size a ≤ S4096x4096.size a
  hwx2_6 : ∀ i : grid2.Coords, EltTy.bits .f32 = 32 ∨ (Rect.block (s := S4096x4096) S256x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S32x256.size a ≤ S32x4096.size a
  hwx2_7 : ∀ i : grid2.Coords, EltTy.bits .f32 = 32 ∨ (Rect.block (s := S32x4096) S32x256.size (cc2_transform_7 i) (hinb2_7 i)).WholeWords (EltTy.packing .f32)

variable [Facts₀]

def dot_S32x4096_S512x4096_S32x512_1_1_0_0_n_n : DotDims S32x4096 S512x4096 S32x512 where
  lhsContracting := [1]
  rhsContracting := [1]
  lhsNonContracting := [0]
  rhsNonContracting := [0]
  lhsBatch := []
  rhsBatch := []
  wf := dot_S32x4096_S512x4096_S32x512_1_1_0_0_n_n_wf
def dot_S32x4096_S128x4096_S32x128_1_1_0_0_n_n : DotDims S32x4096 S128x4096 S32x128 where
  lhsContracting := [1]
  rhsContracting := [1]
  lhsNonContracting := [0]
  rhsNonContracting := [0]
  lhsBatch := []
  rhsBatch := []
  wf := dot_S32x4096_S128x4096_S32x128_1_1_0_0_n_n_wf
def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S32x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S32x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128x4096.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x4096.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x4096.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1_0) S32x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v1_1) S32x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v0) S32x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S32x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S32x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S32x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1_0) S32x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S256x4096.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S256x4096.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v2) S32x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S32x4096 : Shape := ⟨2, ![32, 4096]⟩
abbrev S4096x4096 : Shape := ⟨2, ![4096, 4096]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S32x4096, .f32⟩
  | .hbm, ⟨2, _⟩ => ⟨S32x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S32x4096, .f32⟩
  | .hbm, ⟨14, _⟩ => ⟨S32x4096, .f32⟩
  | .hbm, ⟨15, _⟩ => ⟨S4096x4096, .f32⟩
  | .hbm, ⟨16, _⟩ => ⟨S32x4096, .f32⟩
  | .hbm, ⟨17, _⟩ => ⟨S4096x4096, .f32⟩
  | .hbm, ⟨18, _⟩ => ⟨S32x4096, .f32⟩
  | .hbm, ⟨19, _⟩ => ⟨S32x4096, .f32⟩
  | .hbm, ⟨20, _⟩ => ⟨S4096x4096, .f32⟩
  | .hbm, ⟨21, _⟩ => ⟨S32x4096, .f32⟩
  | .hbm, ⟨22, _⟩ => ⟨S32x4096, .f32⟩
  | .hbm, ⟨23, _⟩ => ⟨S32x4096, .f32⟩
  | .hbm, ⟨24, _⟩ => ⟨S32x4096, .f32⟩
  | .hbm, ⟨25, _⟩ => ⟨S_, .f32⟩
  | .hbm, ⟨26, _⟩ => ⟨S32x4096, .f32⟩
  | .hbm, ⟨27, _⟩ => ⟨S32x4096, .f32⟩
  | .hbm, ⟨28, _⟩ => ⟨S_, .f32⟩
  | .hbm, ⟨29, _⟩ => ⟨S32x4096, .f32⟩
  | .hbm, ⟨30, _⟩ => ⟨S32x4096, .f32⟩
  | .hbm, ⟨31, _⟩ => ⟨S4096x4096, .f32⟩
  | .hbm, ⟨32, _⟩ => ⟨S32x4096, .f32⟩
  | .hbm, ⟨33, _⟩ => ⟨S4096x4096, .f32⟩
  | .hbm, ⟨34, _⟩ => ⟨S32x4096, .f32⟩
  | .hbm, ⟨35, _⟩ => ⟨S32x4096, .f32⟩
  | .hbm, ⟨36, _⟩ => ⟨S4096x4096, .f32⟩
  | .hbm, ⟨37, _⟩ => ⟨S32x4096, .f32⟩
  | .hbm, ⟨38, _⟩ => ⟨S32x4096, .f32⟩
  | .hbm, ⟨39, _⟩ => ⟨S32x4096, .f32⟩
  | .hbm, ⟨40, _⟩ => ⟨S32x4096, .f32⟩
  | .hbm, ⟨41, _⟩ => ⟨S_, .f32⟩
  | .hbm, ⟨42, _⟩ => ⟨S32x4096, .f32⟩
  | .hbm, ⟨43, _⟩ => ⟨S32x4096, .f32⟩
  | .hbm, ⟨44, _⟩ => ⟨S_, .f32⟩
  | .hbm, ⟨45, _⟩ => ⟨S32x4096, .f32⟩
  | .hbm, ⟨46, _⟩ => ⟨S32x4096, .f32⟩
  | .hbm, ⟨47, _⟩ => ⟨S4096x4096, .f32⟩
  | .hbm, ⟨48, _⟩ => ⟨S32x4096, .f32⟩
  | .hbm, ⟨49, _⟩ => ⟨S4096x4096, .f32⟩
  | .hbm, ⟨50, _⟩ => ⟨S32x4096, .f32⟩
  | .hbm, ⟨51, _⟩ => ⟨S32x4096, .f32⟩
  | .hbm, ⟨52, _⟩ => ⟨S32x4096, .f32⟩
  | .hbm, ⟨53, _⟩ => ⟨S32x4096, .f32⟩
  | .hbm, ⟨54, _⟩ => ⟨S32x4096, .f32⟩
  | .hbm, ⟨55, _⟩ => ⟨S_, .f32⟩
  | .hbm, ⟨56, _⟩ => ⟨S32x4096, .f32⟩
  | .hbm, ⟨57, _⟩ => ⟨S32x4096, .f32⟩
  | .hbm, ⟨58, _⟩ => ⟨S32x4096, .f32⟩
  | .hbm, ⟨59, _⟩ => ⟨S32x4096, .f32⟩
  | .hbm, ⟨60, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S32x4096 : S_.BroadcastsInDim S32x4096 (![] : Fin 0 → Fin S32x4096.rank)
  dot_S32x4096_S4096x4096_S32x4096_1_0_0_1_n_n_wf : DotDims.WF S32x4096 S4096x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf

class Facts : Prop extends Facts₀ where

variable [Facts]
-- ==== Proof.LibTransposedDot.lean ====
/-
  A matrix product against a transposed right operand, `x · Wᵀ`, read at coordinates.

  For `x` of `M × K` and `W` of `N × K` the product's entry at `(r, c)` is `∑ k, x (r, k) * W (c, k)` on the
  extended reals (`projT`): both operands are contracted over their LAST axis, the dimension numbers
  `<[1], [1], [0], [0]>` of a linear layer whose weight is stored as (outputs × inputs). Three readings, generic in
  the extents. The matrix unit's product with these dimension numbers, into a zero accumulator, is this sum. A block
  of `B` consecutive COLUMNS of `projT X W` is the matrix unit's product of the whole of `X` with the block of `B`
  consecutive rows of `W`: column `q` of block `b` is column `b * B + q` of the array and depends on row
  `b * B + q` of `W` alone. And the plain product `x · V` (dimension numbers `<[1], [0], [0], [1]>`) with `V` the
  transpose of `W` is the same function: `V (k, c) = W (c, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The dimension numbers `<[1], [1], [0], [0]>` of an `M×K` by `(N×K)ᵀ` product, at any witness of their conditions. -/
abbrev dims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- The dimension numbers `<[1], [0], [0], [1]>` of a plain `M×K` by `K×N` product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat}

/-- `x · Wᵀ`: entry `(i 0, i 1)` is the sum over `k` of `x (i 0, k) * W (i 1, k)`. -/
def projT (x : (⟨2, ![M, K]⟩ : Shape).Idx → EReal) (W : (⟨2, ![N, K]⟩ : Shape).Idx → EReal) :
    (⟨2, ![M, N]⟩ : Shape).Idx → EReal :=
  fun i => ∑ k : Fin K, x (ix2 (n0 := M) (n1 := K) (i 0) k) * W (ix2 (n0 := N) (n1 := K) (i 1) k)

/-- The product at named coordinates. -/
theorem projT_apply (x : (⟨2, ![M, K]⟩ : Shape).Idx → EReal) (W : (⟨2, ![N, K]⟩ : Shape).Idx → EReal)
    (r : Fin M) (c : Fin N) : projT x W (ix2 r c) = ∑ k : Fin K, x (ix2 r k) * W (ix2 c k) := rfl

section Transposed
variable (wf : DotDims.WF ⟨2, ![M, K]⟩ ⟨2, ![N, K]⟩ ⟨2, ![M, N]⟩ [1] [1] [0] [0] [] [])

/-- The left operand's index at output `(r, c)` and contraction coordinate `k` is `(r, k)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction coordinate `k` is `(c, k)`: the output's column picks
    the right operand's ROW. -/
theorem rhsIdx_eq (r : Fin M) (c : Fin N) (k : Fin K) :
    (dims M K N wf).rhsIdx (ix2 r c) ((contrEquiv1 (dims M K N wf) K rfl rfl).symm k) = ix2 c k := by
  have hk := contrEquiv1_symm_val (dims M K N wf) K rfl rfl k
  funext a
  refine Fin.ext ?_
  match a with
  | ⟨0, _⟩ =>
    show ((dims M K N wf).rhsIdx (ix2 r c) _ 0).val = c.val
    unfold DotDims.rhsIdx
    rw [dif_neg (show ¬(0 : Fin 2) ∈ (dims M K N wf).rhsBatch from List.not_mem_nil),
      dif_pos (show (0 : Fin 2) ∈ (dims M K N wf).rhsNonContracting from List.mem_singleton.mpr rfl)]
    rfl
  | ⟨1, _⟩ =>
    exact ((dims M K N wf).rhsIdx_val_of_single rfl (ix2 r c) _).trans hk

/-- THE CONTRACTION at `(r, c)`: the sum over `k` of `lhs (r, k) * rhs (c, k)`. -/
theorem contraction_apply (lhs : (⟨2, ![M, K]⟩ : Shape).Idx → EReal) (rhs : (⟨2, ![N, K]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 c k) := by
  rw [← Equiv.sum_comp (contrEquiv1 (dims M K N wf) K rfl rfl).symm]
  refine Finset.sum_congr rfl fun k _ => ?_
  rw [lhsIdx_eq wf r c k, rhsIdx_eq wf r c k]

/-- The matrix unit's product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 c k) := by
  rw [Ideal.matmul_constant_zero_apply]
  exact contraction_apply wf lhs rhs r c

end Transposed

/-- Block `b` of `B` columns of `X · Wᵀ`: when `x0` holds `X` and `x1` holds rows `b * B …` of `W`, the matrix
    unit's product of `x0` and `x1` into a zero accumulator is, at `(p, q)`, the product at `(p, b * B + q)`. -/
theorem matmul_block {B : Nat} (wf : DotDims.WF ⟨2, ![M, K]⟩ ⟨2, ![B, K]⟩ ⟨2, ![M, B]⟩ [1] [1] [0] [0] [] [])
    {φ₁ φ₂ : FTy} (prec : Option ContractPrecision)
    (X : (⟨2, ![M, K]⟩ : Shape).Idx → EReal) (W : (⟨2, ![N, K]⟩ : Shape).Idx → EReal)
    (x0 : FVec Ideal ⟨2, ![M, K]⟩ φ₁) (x1 : FVec Ideal ⟨2, ![B, K]⟩ φ₂) (b : Nat)
    (hcol : ∀ q : Fin B, b * B + q.val < N)
    (h0 : ∀ (p : Fin M) (k : Fin K), x0 (ix2 p k) = X (ix2 p k))
    (h1 : ∀ (q : Fin B) (k : Fin K), x1 (ix2 q k) = W (ix2 ⟨b * B + q.val, hcol q⟩ k)) (p : Fin M) (q : Fin B) :
    FloatOps.matmul (dims M K B wf) prec x0 x1 (constant ⟨2, ![M, B]⟩ .f32 0x00000000#32) (ix2 p q)
      = projT X W (ix2 p ⟨b * B + q.val, hcol q⟩) := by
  rw [matmul_zero_apply wf prec x0 x1 p q, projT_apply]
  exact Finset.sum_congr rfl fun k _ => by rw [h0 p k, h1 q k]

section Plain
variable (wf : DotDims.WF ⟨2, ![M, K]⟩ ⟨2, ![K, N]⟩ ⟨2, ![M, N]⟩ [1] [0] [0] [1] [] [])

/-- The plain product's left operand index at `(r, c)`, `k` is `(r, k)`. -/
theorem plain_lhsIdx_eq (r : Fin M) (c : Fin N) (k : Fin K) :
    (plainDims M K N wf).lhsIdx (ix2 r c) ((contrEquiv1 (plainDims M K N wf) K rfl rfl).symm k) = ix2 r k := by
  have hk := contrEquiv1_symm_val (plainDims M K N wf) K rfl rfl k
  funext a
  refine Fin.ext ?_
  match a with
  | ⟨0, _⟩ =>
    show ((plainDims M K N wf).lhsIdx (ix2 r c) _ 0).val = r.val
    unfold DotDims.lhsIdx
    rw [dif_neg (show ¬(0 : Fin 2) ∈ (plainDims M K N wf).lhsBatch from List.not_mem_nil),
      dif_pos (show (0 : Fin 2) ∈ (plainDims M K N wf).lhsNonContracting from List.mem_singleton.mpr rfl)]
    rfl
  | ⟨1, _⟩ =>
    exact ((plainDims M K N wf).lhsIdx_val_of_single rfl (ix2 r c) _).trans hk

/-- The plain product's right operand index at `(r, c)`, `k` is `(k, c)`. -/
theorem plain_rhsIdx_eq (r : Fin M) (c : Fin N) (k : Fin K) :
    (plainDims M K N wf).rhsIdx (ix2 r c) ((contrEquiv1 (plainDims M K N wf) K rfl rfl).symm k) = ix2 k c := by
  have hk := contrEquiv1_symm_val (plainDims M K N wf) K rfl rfl k
  funext a
  refine Fin.ext ?_
  match a with
  | ⟨0, _⟩ =>
    exact ((plainDims M K N wf).rhsIdx_val_of_single rfl (ix2 r c) _).trans hk
  | ⟨1, _⟩ =>
    show ((plainDims M K N wf).rhsIdx (ix2 r c) _ 1).val = c.val
    unfold DotDims.rhsIdx
    rw [dif_neg (show ¬(1 : Fin 2) ∈ (plainDims M K N wf).rhsBatch from List.not_mem_nil),
      dif_pos (show (1 : Fin 2) ∈ (plainDims M K N wf).rhsNonContracting from List.mem_singleton.mpr rfl)]
    rfl

/-- The host's plain product of `x` with an array `V` that is the transpose of `W` (`V (k, c) = W (c, k)`) is
    `x · Wᵀ`. -/
theorem dotGeneral_transposed {φ₁ φ₂ : FTy} (prec : Option ContractPrecision) (sched : HostSchedule)
    (x : FVec Ideal ⟨2, ![M, K]⟩ φ₁) (V : FVec Ideal ⟨2, ![K, N]⟩ φ₂) (W : (⟨2, ![N, K]⟩ : Shape).Idx → EReal)
    (hV : ∀ (k : Fin K) (c : Fin N), V (ix2 k c) = W (ix2 c k)) :
    FloatOps.dotGeneral (plainDims M K N wf) prec sched x V = projT x W := by
  funext i
  obtain ⟨r, c, rfl⟩ : ∃ (r : Fin M) (c : Fin N), i = ix2 r c := ⟨i 0, i 1, eq_ix2 i⟩
  rw [Ideal.dotGeneral_apply, projT_apply, ← Equiv.sum_comp (contrEquiv1 (plainDims M K N wf) K rfl rfl).symm]
  refine Finset.sum_congr rfl fun k _ => ?_
  rw [plain_lhsIdx_eq wf r c k, plain_rhsIdx_eq wf r c k, hV k c]

end Plain

end Idealize.ShloMosaic.TransposedDot

end
-- ==== Proof.Spec.lean ====
/-
  The gated recurrent cell both programs compute, as one function of the twelve argument arrays on the extended reals.

  With `lin x W = x · Wᵀ` (a bias-free linear layer whose weight is stored outputs × inputs):
    f  = tanh (lin x W_mlp)
    z  = σ (lin f Wxz + lin h0 Whz + lin hg0 Wgpz)
    r  = σ (lin f Wxr + lin h0 Whr + lin hg0 Wgpr)
    n  = tanh (lin f Wxn + lin hg0 Wgpn + r * h0)
    hp = (1 - z) * h0 + z * n
  where `σ u = 1 / (1 + e^(-u))`. The sums are taken in exactly this order on both sides, so no law of the extended
  reals beyond the definitions is needed, and no finiteness.
-/
import Idealize.ShloMosaic.PureOps.Ideal
import Idealize.ShloMosaic.Lib.ValueIdx
import proofs.«169383_j69647189672188_1_alg».proof.Proof.LibTransposedDot

noncomputable section

namespace Cert.Gru

open Idealize.ShloMosaic Idealize.ShloMosaic.ValueIdx Idealize.ShloMosaic.TransposedDot

/-- An activation array: 32 rows of 4096 features. -/
abbrev Act : Type := (⟨2, ![32, 4096]⟩ : Shape).Idx → EReal
/-- A weight array: 4096 outputs × 4096 inputs. -/
abbrev Wt : Type := (⟨2, ![4096, 4096]⟩ : Shape).Idx → EReal

/-- The f32 word of 1.0 denotes the number one. -/
theorem one_f32 : Ideal.ofBits .f32 0x3F800000#32 = 1 := by
  simp [Ideal.ofBits, Ideal.ieee, -EReal.coe_mul]; norm_num

/-- The linear layer `x · Wᵀ`. -/
def lin (x : Act) (W : Wt) : Act := projT (M := 32) (K := 4096) (N := 4096) x W

/-- The input filter `f = tanh (x · W_mlpᵀ)`. -/
def filt (x : Act) (Wmlp : Wt) : Act := fun i => Ideal.tanh (lin x Wmlp i)

/-- A gate `σ (f · Waᵀ + h0 · Wbᵀ + hg0 · Wcᵀ)`: the update gate `z` and the reset gate `r`. -/
def gate (f h0 hg0 : Act) (Wa Wb Wc : Wt) : Act :=
  fun i => Ideal.logistic (lin f Wa i + lin h0 Wb i + lin hg0 Wc i)

/-- The new state `(1 - z) * h0 + z * tanh (f · Wxnᵀ + hg0 · Wgpnᵀ + r * h0)`. -/
def newState (f hg0 r h0 z : Act) (Wxn Wgpn : Wt) : Act :=
  fun i => (1 - z i) * h0 i + z i * Ideal.tanh (lin f Wxn i + lin hg0 Wgpn i + r i * h0 i)

/-- The whole cell from the twelve arguments, in the entry point's order. -/
def cell (x h0 hg0 : Act) (Wmlp Wxz Whz Wgpz Wxr Whr Wgpr Wxn Wgpn : Wt) : Act :=
  newState (filt x Wmlp) hg0 (gate (filt x Wmlp) h0 hg0 Wxr Whr Wgpr) h0 (gate (filt x Wmlp) h0 hg0 Wxz Whz Wgpz) Wxn Wgpn

end Cert.Gru

end
-- ==== Proof.KRun.lean ====
/-
  The idealized kernel program's run with its result array named.

  The program is three pipelined regions in a row. Its buffers at the boundaries between them are a fold from the launch
  memory: `W1` after the first region, `W2` after the second, `W3` after the third, each region's arrays at what its
  write-backs leave and every other buffer as it was. Here the run is posted with the result array `main_v2` read off
  the last boundary, beside the unchanged arguments; the value modules say what `W3` holds there.
-/
import proofs.«169383_j69647189672188_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole program's run with the result array named: every weakly fair execution of @main terminates, nothing
    faulting, with the result array `main_v2` at the last boundary's contents `W3` and the twelve argument arrays as
    launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c)⟩)

end Cert.KernelIdeal.Run

end
-- ==== Proof.KFilter.lean ====
/-
  The first region: the input filter `f = tanh (x · W_mlpᵀ)`.

  The region runs over 8 grid points. At point `t` its body sees the whole of `x` (32 × 4096) and rows
  `t * 512 … t * 512 + 511` of `W_mlp`, contracts the two over their last axis into a zero accumulator, applies
  `tanh`, and stores the 32 × 512 result, which is written back as columns `t * 512 …` of the output. Entry
  `(p, t * 512 + q)` therefore depends on row `p` of `x` and row `t * 512 + q` of `W_mlp` alone, the 8 blocks tile
  the output, and the array ends holding `filt x W_mlp` — for whatever the region's arrays held on entry.
-/
import proofs.«169383_j69647189672188_1_alg».proof.Proof.Gen.KernelIdeal.Frame
import proofs.«169383_j69647189672188_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ValF

open Cert.KernelIdeal Cert.KernelIdeal.Gen Cert.Gru
open Idealize.ShloMosaic Idealize.ShloMosaic.TcCoe Idealize.SL.Sem
open Idealize.ShloMosaic.ValueIdx Idealize.ShloMosaic.TransposedDot
open Idealize.ShloMosaic.Pipeline (Dat)

/-- The zero offsets of a whole-block access, however they are spelt. -/
theorem hz : (![0, 0] : Fin 2 → Nat) = fun _ => 0 := funext fun a => by fin_cases a <;> rfl

/-- The region's product contracts the last axis of both operands. -/
theorem dims0 : dot_S32x4096_S512x4096_S32x512_1_1_0_0_n_n = dims 32 4096 512 Facts₀.dot_S32x4096_S512x4096_S32x512_1_1_0_0_n_n_wf := rfl

/-- THE BODY AT AN INDEX. With the first operand the whole of `X` and the second rows `n * 512 …` of `Wm`, the stored
    value at `(p, q)` is `tanh` of row `p` of `X` against row `n * 512 + q` of `Wm`: the filter at `(p, n * 512 + q)`.
    (A change of float format is the identity here.) -/
theorem pay_f (X : Act) (Wm : Wt) (x0 : Vec Ideal S32x4096 .f32) (x1 : Vec Ideal S512x4096 .f32) (n : Nat)
    (hn : ∀ q : Fin 512, n * 512 + q.val < 4096)
    (h0 : ∀ (p : Fin 32) (k : Fin 4096), x0 (ix2 p k) = X (ix2 p k))
    (h1 : ∀ (q : Fin 512) (k : Fin 4096), x1 (ix2 q k) = Wm (ix2 ⟨n * 512 + q.val, hn q⟩ k)) (p : Fin 32) (q : Fin 512) :
    k0_pay1 (F := Ideal) x0 x1 (ix2 p q) = filt X Wm (ix2 p ⟨n * 512 + q.val, hn q⟩) := by
  unfold k0_pay1
  rw [dims0]
  exact congrArg Ideal.tanh (matmul_block (M := 32) (K := 4096) (N := 4096) (B := 512) _ none X Wm _ _ n hn h0 h1 p q)

section
variable (V : (c : Dev nD) → (b : Ref sig .tc) → Buf (Elt Ideal) ((c : Thread nD τ).loc b))

/-- The three index maps over the 8 grid points: the activations are one whole block, the weight moves down by
    blocks of 512 rows, the output moves right by blocks of 512 columns. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- WHAT POINT `t` WRITES BACK is block `t` (columns `t * 512 …`) of the filter of the arrays as the region finds them. -/
theorem flushed_f (c : Dev nD) (t : Fin cfg0.N) :
    (dat0 V c).flushed 2 t = ((cfg0.win 2).blk t).view.read (Elt Ideal) (filt (V c main_arg0) (V c main_arg3)) := by
  show (cfg0.win 2).cut (grid0.coords t) ((dat0 V c).after 2 t) = _
  rw [after0_2]
  unfold out0_2
  rw [View.canon_unit_zero hz]
  simp only [View.ld_unit_zero (S := S32x4096) hz, View.ld_unit_zero (S := S512x4096) hz]
  obtain ⟨e0, e1, e2, e3, e4, e5⟩ := idx_facts t
  have ht : t.val < 8 := t.isLt
  funext j
  obtain ⟨p, q, rfl⟩ : ∃ (p : Fin 32) (q : Fin 512), j = ix2 p q := ⟨j 0, j 1, eq_ix2 j⟩
  show k0_pay1 (iblk0 V c 0 t) (iblk0 V c 1 t) (ix2 p q)
    = filt (V c main_arg0) (V c main_arg3) (((cfg0.win 2).blk t).view.emb (ix2 p q))
  have hn : ∀ q : Fin 512, t.val * 512 + q.val < 4096 := fun q => by have := q.isLt; omega
  refine (pay_f (V c main_arg0) (V c main_arg3) (iblk0 V c 0 t) (iblk0 V c 1 t) t.val hn ?_ ?_ p q).trans ?_
  · intro p k
    show V c main_arg0 (((cfg0.win 0).blk t).view.emb (ix2 p k)) = V c main_arg0 (ix2 p k)
    refine congrArg (V c main_arg0) (funext fun a => Fin.ext ?_)
    match a with
    | ⟨0, _⟩ => show win0_0.index t (0 : Fin 2) * 32 + 1 * p.val = p.val; omega
    | ⟨1, _⟩ => show win0_0.index t (1 : Fin 2) * 4096 + 1 * k.val = k.val; omega
  · intro q k
    show V c main_arg3 (((cfg0.win 1).blk t).view.emb (ix2 q k)) = V c main_arg3 (ix2 ⟨t.val * 512 + q.val, hn q⟩ k)
    refine congrArg (V c main_arg3) (funext fun a => Fin.ext ?_)
    match a with
    | ⟨0, _⟩ => show win0_1.index t (0 : Fin 2) * 512 + 1 * q.val = t.val * 512 + q.val; omega
    | ⟨1, _⟩ => show win0_1.index t (1 : Fin 2) * 4096 + 1 * k.val = k.val; omega
  · refine congrArg (filt (V c main_arg0) (V c main_arg3)) (funext fun a => Fin.ext ?_)
    match a with
    | ⟨0, _⟩ => show p.val = win0_2.index t (0 : Fin 2) * 32 + 1 * p.val; omega
    | ⟨1, _⟩ => show t.val * 512 + q.val = win0_2.index t (1 : Fin 2) * 512 + 1 * q.val; omega

/-- An index is in point `t`'s output block iff each coordinate is in the block's range. -/
theorem mem_blk (t : Fin cfg0.N) (i : S32x4096.Idx) :
    i ∈ ((cfg0.win 2).blk t).view.set ↔ ∀ a : Fin 2, win0_2.index t a * S32x512.size a ≤ (i a).val
      ∧ (i a).val < win0_2.index t a * S32x512.size a + S32x512.size a := by
  show i ∈ ((View.whole main_v0).slice (win0_2.rect t)).set ↔ _
  rw [View.set_slice_whole, Rect.mem_set_unit]
  exact Iff.rfl

/-- The 8 output blocks cover the array: column `j` lies in block `j / 512`. -/
theorem cover_f (i : S32x4096.Idx) :
    ∃ t : Fin cfg0.N, (cfg0.win 2).flush t = true ∧ i ∈ ((cfg0.win 2).blk t).view.set := by
  have hi0 : (i 0).val < 32 := (i 0).isLt
  have hi1 : (i 1).val < 4096 := (i 1).isLt
  obtain ⟨tt, htt⟩ : ∃ tt : Fin cfg0.N, tt.val = (i 1).val / 512 :=
    ⟨⟨(i 1).val / 512, show (i 1).val / 512 < 8 by omega⟩, rfl⟩
  obtain ⟨e0, e1, e2, e3, e4, e5⟩ := idx_facts tt
  refine ⟨tt, flush0_2 tt, ?_⟩
  rw [mem_blk]
  intro a
  match a with
  | ⟨0, _⟩ =>
    show win0_2.index tt (0 : Fin 2) * 32 ≤ (i 0).val ∧ (i 0).val < win0_2.index tt (0 : Fin 2) * 32 + 32
    omega
  | ⟨1, _⟩ =>
    show win0_2.index tt (1 : Fin 2) * 512 ≤ (i 1).val ∧ (i 1).val < win0_2.index tt (1 : Fin 2) * 512 + 512
    omega

/-- THE ARRAY after the region: the filter `tanh (x · W_mlpᵀ)` of the arrays the region was entered with. -/
theorem final_f (c : Dev nD) : (dat0 V c).arrAt 2 cfg0.N = filt (V c main_arg0) (V c main_arg3) :=
  (dat0 V c).arrAt_eq_of_cover 2 _ (fun t _ => flushed_f V c t) cover_f

end

end Cert.KernelIdeal.ValF
end
-- ==== Proof.KGates.lean ====
/-
  The second region: the update gate `z` and the reset gate `r`.

  The region runs over 32 grid points. At point `t` its body sees the whole of `f`, `h0` and `hg0` (32 × 4096 each) and
  rows `t * 128 … t * 128 + 127` of six weights. For each gate it forms the three products `f · Waᵀ`, `h0 · Wbᵀ`,
  `hg0 · Wcᵀ` on that block of rows (each into a zero accumulator), adds them left to right, applies the logistic
  function, and stores the 32 × 128 result, written back as columns `t * 128 …` of that gate's array. The 32 blocks tile
  each array, which ends holding `gate f h0 hg0 Wa Wb Wc` of the arrays the region was entered with.
-/
import proofs.«169383_j69647189672188_1_alg».proof.Proof.Gen.KernelIdeal.Frame
import proofs.«169383_j69647189672188_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ValG

open Cert.KernelIdeal Cert.KernelIdeal.Gen Cert.Gru
open Idealize.ShloMosaic Idealize.ShloMosaic.TcCoe Idealize.SL.Sem
open Idealize.ShloMosaic.ValueIdx Idealize.ShloMosaic.TransposedDot
open Idealize.ShloMosaic.Pipeline (Dat)

/-- The zero offsets of a whole-block access, however they are spelt. -/
theorem hz : (![0, 0] : Fin 2 → Nat) = fun _ => 0 := funext fun a => by fin_cases a <;> rfl

/-- The region's products contract the last axis of both operands. -/
theorem dims1 : dot_S32x4096_S128x4096_S32x128_1_1_0_0_n_n = dims 32 4096 128 Facts₀.dot_S32x4096_S128x4096_S32x128_1_1_0_0_n_n_wf := rfl

/-- THE UPDATE GATE'S BODY AT AN INDEX: with the three activations whole and the three weights' rows `n * 128 …`, the
    stored value at `(p, q)` is the logistic function of the three products summed left to right — the gate at
    `(p, n * 128 + q)`. -/
theorem pay_z (F0 H0 HG : Act) (Wa Wb Wc : Wt) (x0 x1 x2 : Vec Ideal S32x4096 .f32) (x3 x4 x5 : Vec Ideal S128x4096 .f32)
    (n : Nat) (hn : ∀ q : Fin 128, n * 128 + q.val < 4096)
    (h0 : ∀ (p : Fin 32) (k : Fin 4096), x0 (ix2 p k) = F0 (ix2 p k))
    (h1 : ∀ (p : Fin 32) (k : Fin 4096), x1 (ix2 p k) = H0 (ix2 p k))
    (h2 : ∀ (p : Fin 32) (k : Fin 4096), x2 (ix2 p k) = HG (ix2 p k))
    (h3 : ∀ (q : Fin 128) (k : Fin 4096), x3 (ix2 q k) = Wa (ix2 ⟨n * 128 + q.val, hn q⟩ k))
    (h4 : ∀ (q : Fin 128) (k : Fin 4096), x4 (ix2 q k) = Wb (ix2 ⟨n * 128 + q.val, hn q⟩ k))
    (h5 : ∀ (q : Fin 128) (k : Fin 4096), x5 (ix2 q k) = Wc (ix2 ⟨n * 128 + q.val, hn q⟩ k)) (p : Fin 32) (q : Fin 128) :
    k1_pay4 (F := Ideal) x0 x1 x2 x3 x4 x5 (ix2 p q) = gate F0 H0 HG Wa Wb Wc (ix2 p ⟨n * 128 + q.val, hn q⟩) := by
  unfold k1_pay4 k1_pay1 k1_pay2 k1_pay3
  rw [dims1, shapeCast_self]
  exact congrArg Ideal.logistic (congrArg₂ (· + ·) (congrArg₂ (· + ·)
    (matmul_block (M := 32) (K := 4096) (N := 4096) (B := 128) _ none F0 Wa _ _ n hn h0 h3 p q)
    (matmul_block (M := 32) (K := 4096) (N := 4096) (B := 128) _ none H0 Wb _ _ n hn h1 h4 p q))
    (matmul_block (M := 32) (K := 4096) (N := 4096) (B := 128) _ none HG Wc _ _ n hn h2 h5 p q))

/-- THE RESET GATE'S BODY AT AN INDEX: the same expression over the other three weights. -/
theorem pay_r (F0 H0 HG : Act) (Wa Wb Wc : Wt) (x0 x1 x2 : Vec Ideal S32x4096 .f32) (x3 x4 x5 : Vec Ideal S128x4096 .f32)
    (n : Nat) (hn : ∀ q : Fin 128, n * 128 + q.val < 4096)
    (h0 : ∀ (p : Fin 32) (k : Fin 4096), x0 (ix2 p k) = F0 (ix2 p k))
    (h1 : ∀ (p : Fin 32) (k : Fin 4096), x1 (ix2 p k) = H0 (ix2 p k))
    (h2 : ∀ (p : Fin 32) (k : Fin 4096), x2 (ix2 p k) = HG (ix2 p k))
    (h3 : ∀ (q : Fin 128) (k : Fin 4096), x3 (ix2 q k) = Wa (ix2 ⟨n * 128 + q.val, hn q⟩ k))
    (h4 : ∀ (q : Fin 128) (k : Fin 4096), x4 (ix2 q k) = Wb (ix2 ⟨n * 128 + q.val, hn q⟩ k))
    (h5 : ∀ (q : Fin 128) (k : Fin 4096), x5 (ix2 q k) = Wc (ix2 ⟨n * 128 + q.val, hn q⟩ k)) (p : Fin 32) (q : Fin 128) :
    k1_pay5 (F := Ideal) x0 x1 x2 x3 x4 x5 (ix2 p q) = gate F0 H0 HG Wa Wb Wc (ix2 p ⟨n * 128 + q.val, hn q⟩) := by
  unfold k1_pay5 k1_pay1 k1_pay2 k1_pay3
  rw [dims1, shapeCast_self]
  exact congrArg Ideal.logistic (congrArg₂ (· + ·) (congrArg₂ (· + ·)
    (matmul_block (M := 32) (K := 4096) (N := 4096) (B := 128) _ none F0 Wa _ _ n hn h0 h3 p q)
    (matmul_block (M := 32) (K := 4096) (N := 4096) (B := 128) _ none H0 Wb _ _ n hn h1 h4 p q))
    (matmul_block (M := 32) (K := 4096) (N := 4096) (B := 128) _ none HG Wc _ _ n hn h2 h5 p q))

/-- The eleven index maps over the 32 grid points: the three activations are whole blocks, the six weights move down
    by blocks of 128 rows, the two outputs move right by blocks of 128 columns. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = 0 ∧ win1_9.index t (1 : Fin 2) = t.val
    ∧ win1_10.index t (0 : Fin 2) = 0 ∧ win1_10.index t (1 : Fin 2) = t.val :=
  (by decide +kernel : ∀ t : Fin grid1.N, _)

section
variable (V : (c : Dev nD) → (b : Ref sig .tc) → Buf (Elt Ideal) ((c : Thread nD τ).loc b))

/-! Each window's block at a point, read where its index map puts it. -/

theorem rd1_0 (c : Dev nD) (t : Fin cfg1.N) (p : Fin 32) (k : Fin 4096) :
    iblk1 V c 0 t (ix2 p k) = V c main_v0 (ix2 p k) := by
  obtain ⟨e0, e1, e2, e3, e4, e5, e6, e7, e8, e9, e10, e11, e12, e13, e14, e15, e16, e17, e18, e19, e20, e21⟩ := idx_facts t
  show V c main_v0 (((cfg1.win 0).blk t).view.emb (ix2 p k)) = V c main_v0 (ix2 p k)
  refine congrArg (V c main_v0) (funext fun a => Fin.ext ?_)
  match a with
  | ⟨0, _⟩ => show win1_0.index t (0 : Fin 2) * 32 + 1 * p.val = p.val; omega
  | ⟨1, _⟩ => show win1_0.index t (1 : Fin 2) * 4096 + 1 * k.val = k.val; omega

theorem rd1_1 (c : Dev nD) (t : Fin cfg1.N) (p : Fin 32) (k : Fin 4096) :
    iblk1 V c 1 t (ix2 p k) = V c main_arg1 (ix2 p k) := by
  obtain ⟨e0, e1, e2, e3, e4, e5, e6, e7, e8, e9, e10, e11, e12, e13, e14, e15, e16, e17, e18, e19, e20, e21⟩ := idx_facts t
  show V c main_arg1 (((cfg1.win 1).blk t).view.emb (ix2 p k)) = V c main_arg1 (ix2 p k)
  refine congrArg (V c main_arg1) (funext fun a => Fin.ext ?_)
  match a with
  | ⟨0, _⟩ => show win1_1.index t (0 : Fin 2) * 32 + 1 * p.val = p.val; omega
  | ⟨1, _⟩ => show win1_1.index t (1 : Fin 2) * 4096 + 1 * k.val = k.val; omega

theorem rd1_2 (c : Dev nD) (t : Fin cfg1.N) (p : Fin 32) (k : Fin 4096) :
    iblk1 V c 2 t (ix2 p k) = V c main_arg2 (ix2 p k) := by
  obtain ⟨e0, e1, e2, e3, e4, e5, e6, e7, e8, e9, e10, e11, e12, e13, e14, e15, e16, e17, e18, e19, e20, e21⟩ := idx_facts t
  show V c main_arg2 (((cfg1.win 2).blk t).view.emb (ix2 p k)) = V c main_arg2 (ix2 p k)
  refine congrArg (V c main_arg2) (funext fun a => Fin.ext ?_)
  match a with
  | ⟨0, _⟩ => show win1_2.index t (0 : Fin 2) * 32 + 1 * p.val = p.val; omega
  | ⟨1, _⟩ => show win1_2.index t (1 : Fin 2) * 4096 + 1 * k.val = k.val; omega

theorem rd1_3 (c : Dev nD) (t : Fin cfg1.N) (hn : ∀ q : Fin 128, t.val * 128 + q.val < 4096) (q : Fin 128) (k : Fin 4096) :
    iblk1 V c 3 t (ix2 q k) = V c main_arg4 (ix2 ⟨t.val * 128 + q.val, hn q⟩ k) := by
  obtain ⟨e0, e1, e2, e3, e4, e5, e6, e7, e8, e9, e10, e11, e12, e13, e14, e15, e16, e17, e18, e19, e20, e21⟩ := idx_facts t
  show V c main_arg4 (((cfg1.win 3).blk t).view.emb (ix2 q k)) = V c main_arg4 (ix2 ⟨t.val * 128 + q.val, hn q⟩ k)
  refine congrArg (V c main_arg4) (funext fun a => Fin.ext ?_)
  match a with
  | ⟨0, _⟩ => show win1_3.index t (0 : Fin 2) * 128 + 1 * q.val = t.val * 128 + q.val; omega
  | ⟨1, _⟩ => show win1_3.index t (1 : Fin 2) * 4096 + 1 * k.val = k.val; omega

theorem rd1_4 (c : Dev nD) (t : Fin cfg1.N) (hn : ∀ q : Fin 128, t.val * 128 + q.val < 4096) (q : Fin 128) (k : Fin 4096) :
    iblk1 V c 4 t (ix2 q k) = V c main_arg5 (ix2 ⟨t.val * 128 + q.val, hn q⟩ k) := by
  obtain ⟨e0, e1, e2, e3, e4, e5, e6, e7, e8, e9, e10, e11, e12, e13, e14, e15, e16, e17, e18, e19, e20, e21⟩ := idx_facts t
  show V c main_arg5 (((cfg1.win 4).blk t).view.emb (ix2 q k)) = V c main_arg5 (ix2 ⟨t.val * 128 + q.val, hn q⟩ k)
  refine congrArg (V c main_arg5) (funext fun a => Fin.ext ?_)
  match a with
  | ⟨0, _⟩ => show win1_4.index t (0 : Fin 2) * 128 + 1 * q.val = t.val * 128 + q.val; omega
  | ⟨1, _⟩ => show win1_4.index t (1 : Fin 2) * 4096 + 1 * k.val = k.val; omega

theorem rd1_5 (c : Dev nD) (t : Fin cfg1.N) (hn : ∀ q : Fin 128, t.val * 128 + q.val < 4096) (q : Fin 128) (k : Fin 4096) :
    iblk1 V c 5 t (ix2 q k) = V c main_arg6 (ix2 ⟨t.val * 128 + q.val, hn q⟩ k) := by
  obtain ⟨e0, e1, e2, e3, e4, e5, e6, e7, e8, e9, e10, e11, e12, e13, e14, e15, e16, e17, e18, e19, e20, e21⟩ := idx_facts t
  show V c main_arg6 (((cfg1.win 5).blk t).view.emb (ix2 q k)) = V c main_arg6 (ix2 ⟨t.val * 128 + q.val, hn q⟩ k)
  refine congrArg (V c main_arg6) (funext fun a => Fin.ext ?_)
  match a with
  | ⟨0, _⟩ => show win1_5.index t (0 : Fin 2) * 128 + 1 * q.val = t.val * 128 + q.val; omega
  | ⟨1, _⟩ => show win1_5.index t (1 : Fin 2) * 4096 + 1 * k.val = k.val; omega

theorem rd1_6 (c : Dev nD) (t : Fin cfg1.N) (hn : ∀ q : Fin 128, t.val * 128 + q.val < 4096) (q : Fin 128) (k : Fin 4096) :
    iblk1 V c 6 t (ix2 q k) = V c main_arg7 (ix2 ⟨t.val * 128 + q.val, hn q⟩ k) := by
  obtain ⟨e0, e1, e2, e3, e4, e5, e6, e7, e8, e9, e10, e11, e12, e13, e14, e15, e16, e17, e18, e19, e20, e21⟩ := idx_facts t
  show V c main_arg7 (((cfg1.win 6).blk t).view.emb (ix2 q k)) = V c main_arg7 (ix2 ⟨t.val * 128 + q.val, hn q⟩ k)
  refine congrArg (V c main_arg7) (funext fun a => Fin.ext ?_)
  match a with
  | ⟨0, _⟩ => show win1_6.index t (0 : Fin 2) * 128 + 1 * q.val = t.val * 128 + q.val; omega
  | ⟨1, _⟩ => show win1_6.index t (1 : Fin 2) * 4096 + 1 * k.val = k.val; omega

theorem rd1_7 (c : Dev nD) (t : Fin cfg1.N) (hn : ∀ q : Fin 128, t.val * 128 + q.val < 4096) (q : Fin 128) (k : Fin 4096) :
    iblk1 V c 7 t (ix2 q k) = V c main_arg8 (ix2 ⟨t.val * 128 + q.val, hn q⟩ k) := by
  obtain ⟨e0, e1, e2, e3, e4, e5, e6, e7, e8, e9, e10, e11, e12, e13, e14, e15, e16, e17, e18, e19, e20, e21⟩ := idx_facts t
  show V c main_arg8 (((cfg1.win 7).blk t).view.emb (ix2 q k)) = V c main_arg8 (ix2 ⟨t.val * 128 + q.val, hn q⟩ k)
  refine congrArg (V c main_arg8) (funext fun a => Fin.ext ?_)
  match a with
  | ⟨0, _⟩ => show win1_7.index t (0 : Fin 2) * 128 + 1 * q.val = t.val * 128 + q.val; omega
  | ⟨1, _⟩ => show win1_7.index t (1 : Fin 2) * 4096 + 1 * k.val = k.val; omega

theorem rd1_8 (c : Dev nD) (t : Fin cfg1.N) (hn : ∀ q : Fin 128, t.val * 128 + q.val < 4096) (q : Fin 128) (k : Fin 4096) :
    iblk1 V c 8 t (ix2 q k) = V c main_arg9 (ix2 ⟨t.val * 128 + q.val, hn q⟩ k) := by
  obtain ⟨e0, e1, e2, e3, e4, e5, e6, e7, e8, e9, e10, e11, e12, e13, e14, e15, e16, e17, e18, e19, e20, e21⟩ := idx_facts t
  show V c main_arg9 (((cfg1.win 8).blk t).view.emb (ix2 q k)) = V c main_arg9 (ix2 ⟨t.val * 128 + q.val, hn q⟩ k)
  refine congrArg (V c main_arg9) (funext fun a => Fin.ext ?_)
  match a with
  | ⟨0, _⟩ => show win1_8.index t (0 : Fin 2) * 128 + 1 * q.val = t.val * 128 + q.val; omega
  | ⟨1, _⟩ => show win1_8.index t (1 : Fin 2) * 4096 + 1 * k.val = k.val; omega

/-! An output block's index inside the array. -/

theorem emb1_9 (t : Fin cfg1.N) (hn : ∀ q : Fin 128, t.val * 128 + q.val < 4096) (p : Fin 32) (q : Fin 128) :
    ((cfg1.win 9).blk t).view.emb (ix2 p q) = ix2 p ⟨t.val * 128 + q.val, hn q⟩ := by
  obtain ⟨e0, e1, e2, e3, e4, e5, e6, e7, e8, e9, e10, e11, e12, e13, e14, e15, e16, e17, e18, e19, e20, e21⟩ := idx_facts t
  refine funext fun a => Fin.ext ?_
  match a with
  | ⟨0, _⟩ => show win1_9.index t (0 : Fin 2) * 32 + 1 * p.val = p.val; omega
  | ⟨1, _⟩ => show win1_9.index t (1 : Fin 2) * 128 + 1 * q.val = t.val * 128 + q.val; omega

theorem emb1_10 (t : Fin cfg1.N) (hn : ∀ q : Fin 128, t.val * 128 + q.val < 4096) (p : Fin 32) (q : Fin 128) :
    ((cfg1.win 10).blk t).view.emb (ix2 p q) = ix2 p ⟨t.val * 128 + q.val, hn q⟩ := by
  obtain ⟨e0, e1, e2, e3, e4, e5, e6, e7, e8, e9, e10, e11, e12, e13, e14, e15, e16, e17, e18, e19, e20, e21⟩ := idx_facts t
  refine funext fun a => Fin.ext ?_
  match a with
  | ⟨0, _⟩ => show win1_10.index t (0 : Fin 2) * 32 + 1 * p.val = p.val; omega
  | ⟨1, _⟩ => show win1_10.index t (1 : Fin 2) * 128 + 1 * q.val = t.val * 128 + q.val; omega

/-- WHAT POINT `t` WRITES BACK to the update gate's array is block `t` of the gate of the arrays as found. -/
theorem flushed_z (c : Dev nD) (t : Fin cfg1.N) :
    (dat1 V c).flushed 9 t = ((cfg1.win 9).blk t).view.read (Elt Ideal)
      (gate (V c main_v0) (V c main_arg1) (V c main_arg2) (V c main_arg4) (V c main_arg5) (V c main_arg6)) := by
  show (cfg1.win 9).cut (grid1.coords t) ((dat1 V c).after 9 t) = _
  rw [after1_9]
  unfold out1_9
  rw [View.canon_unit_zero hz]
  simp only [View.ld_unit_zero (S := S32x4096) hz, View.ld_unit_zero (S := S128x4096) hz]
  have ht : t.val < 32 := t.isLt
  have hn : ∀ q : Fin 128, t.val * 128 + q.val < 4096 := fun q => by have := q.isLt; omega
  funext j
  obtain ⟨p, q, rfl⟩ : ∃ (p : Fin 32) (q : Fin 128), j = ix2 p q := ⟨j 0, j 1, eq_ix2 j⟩
  show k1_pay4 (iblk1 V c 0 t) (iblk1 V c 1 t) (iblk1 V c 2 t) (iblk1 V c 3 t) (iblk1 V c 4 t) (iblk1 V c 5 t) (ix2 p q)
    = gate (V c main_v0) (V c main_arg1) (V c main_arg2) (V c main_arg4) (V c main_arg5) (V c main_arg6) (((cfg1.win 9).blk t).view.emb (ix2 p q))
  rw [emb1_9 t hn p q]
  exact pay_z (V c main_v0) (V c main_arg1) (V c main_arg2) (V c main_arg4) (V c main_arg5) (V c main_arg6)
    (iblk1 V c 0 t) (iblk1 V c 1 t) (iblk1 V c 2 t) (iblk1 V c 3 t) (iblk1 V c 4 t) (iblk1 V c 5 t) t.val hn
    (rd1_0 V c t) (rd1_1 V c t) (rd1_2 V c t) (rd1_3 V c t hn) (rd1_4 V c t hn) (rd1_5 V c t hn) p q

/-- WHAT POINT `t` WRITES BACK to the reset gate's array is block `t` of the gate of the arrays as found. -/
theorem flushed_r (c : Dev nD) (t : Fin cfg1.N) :
    (dat1 V c).flushed 10 t = ((cfg1.win 10).blk t).view.read (Elt Ideal)
      (gate (V c main_v0) (V c main_arg1) (V c main_arg2) (V c main_arg7) (V c main_arg8) (V c main_arg9)) := by
  show (cfg1.win 10).cut (grid1.coords t) ((dat1 V c).after 10 t) = _
  rw [after1_10]
  unfold out1_10
  rw [View.canon_unit_zero hz]
  simp only [View.ld_unit_zero (S := S32x4096) hz, View.ld_unit_zero (S := S128x4096) hz]
  have ht : t.val < 32 := t.isLt
  have hn : ∀ q : Fin 128, t.val * 128 + q.val < 4096 := fun q => by have := q.isLt; omega
  funext j
  obtain ⟨p, q, rfl⟩ : ∃ (p : Fin 32) (q : Fin 128), j = ix2 p q := ⟨j 0, j 1, eq_ix2 j⟩
  show k1_pay5 (iblk1 V c 0 t) (iblk1 V c 1 t) (iblk1 V c 2 t) (iblk1 V c 6 t) (iblk1 V c 7 t) (iblk1 V c 8 t) (ix2 p q)
    = gate (V c main_v0) (V c main_arg1) (V c main_arg2) (V c main_arg7) (V c main_arg8) (V c main_arg9) (((cfg1.win 10).blk t).view.emb (ix2 p q))
  rw [emb1_10 t hn p q]
  exact pay_r (V c main_v0) (V c main_arg1) (V c main_arg2) (V c main_arg7) (V c main_arg8) (V c main_arg9)
    (iblk1 V c 0 t) (iblk1 V c 1 t) (iblk1 V c 2 t) (iblk1 V c 6 t) (iblk1 V c 7 t) (iblk1 V c 8 t) t.val hn
    (rd1_0 V c t) (rd1_1 V c t) (rd1_2 V c t) (rd1_6 V c t hn) (rd1_7 V c t hn) (rd1_8 V c t hn) p q

/-! The 32 output blocks of each gate cover its array: column `j` lies in block `j / 128`. -/

theorem mem_blk_z (t : Fin cfg1.N) (i : S32x4096.Idx) :
    i ∈ ((cfg1.win 9).blk t).view.set ↔ ∀ a : Fin 2, win1_9.index t a * S32x128.size a ≤ (i a).val
      ∧ (i a).val < win1_9.index t a * S32x128.size a + S32x128.size a := by
  show i ∈ ((View.whole main_v1_0).slice (win1_9.rect t)).set ↔ _
  rw [View.set_slice_whole, Rect.mem_set_unit]
  exact Iff.rfl

theorem cover_z (i : S32x4096.Idx) :
    ∃ t : Fin cfg1.N, (cfg1.win 9).flush t = true ∧ i ∈ ((cfg1.win 9).blk t).view.set := by
  have hi0 : (i 0).val < 32 := (i 0).isLt
  have hi1 : (i 1).val < 4096 := (i 1).isLt
  obtain ⟨tt, htt⟩ : ∃ tt : Fin cfg1.N, tt.val = (i 1).val / 128 :=
    ⟨⟨(i 1).val / 128, show (i 1).val / 128 < 32 by omega⟩, rfl⟩
  obtain ⟨e0, e1, e2, e3, e4, e5, e6, e7, e8, e9, e10, e11, e12, e13, e14, e15, e16, e17, e18, e19, e20, e21⟩ := idx_facts tt
  refine ⟨tt, flush1_9 tt, ?_⟩
  rw [mem_blk_z]
  intro a
  match a with
  | ⟨0, _⟩ =>
    show win1_9.index tt (0 : Fin 2) * 32 ≤ (i 0).val ∧ (i 0).val < win1_9.index tt (0 : Fin 2) * 32 + 32
    omega
  | ⟨1, _⟩ =>
    show win1_9.index tt (1 : Fin 2) * 128 ≤ (i 1).val ∧ (i 1).val < win1_9.index tt (1 : Fin 2) * 128 + 128
    omega

theorem mem_blk_r (t : Fin cfg1.N) (i : S32x4096.Idx) :
    i ∈ ((cfg1.win 10).blk t).view.set ↔ ∀ a : Fin 2, win1_10.index t a * S32x128.size a ≤ (i a).val
      ∧ (i a).val < win1_10.index t a * S32x128.size a + S32x128.size a := by
  show i ∈ ((View.whole main_v1_1).slice (win1_10.rect t)).set ↔ _
  rw [View.set_slice_whole, Rect.mem_set_unit]
  exact Iff.rfl

theorem cover_r (i : S32x4096.Idx) :
    ∃ t : Fin cfg1.N, (cfg1.win 10).flush t = true ∧ i ∈ ((cfg1.win 10).blk t).view.set := by
  have hi0 : (i 0).val < 32 := (i 0).isLt
  have hi1 : (i 1).val < 4096 := (i 1).isLt
  obtain ⟨tt, htt⟩ : ∃ tt : Fin cfg1.N, tt.val = (i 1).val / 128 :=
    ⟨⟨(i 1).val / 128, show (i 1).val / 128 < 32 by omega⟩, rfl⟩
  obtain ⟨e0, e1, e2, e3, e4, e5, e6, e7, e8, e9, e10, e11, e12, e13, e14, e15, e16, e17, e18, e19, e20, e21⟩ := idx_facts tt
  refine ⟨tt, flush1_10 tt, ?_⟩
  rw [mem_blk_r]
  intro a
  match a with
  | ⟨0, _⟩ =>
    show win1_10.index tt (0 : Fin 2) * 32 ≤ (i 0).val ∧ (i 0).val < win1_10.index tt (0 : Fin 2) * 32 + 32
    omega
  | ⟨1, _⟩ =>
    show win1_10.index tt (1 : Fin 2) * 128 ≤ (i 1).val ∧ (i 1).val < win1_10.index tt (1 : Fin 2) * 128 + 128
    omega

/-- THE UPDATE GATE's array after the region. -/
theorem final_z (c : Dev nD) : (dat1 V c).arrAt 9 cfg1.N
    = gate (V c main_v0) (V c main_arg1) (V c main_arg2) (V c main_arg4) (V c main_arg5) (V c main_arg6) :=
  (dat1 V c).arrAt_eq_of_cover 9 _ (fun t _ => flushed_z V c t) cover_z

/-- THE RESET GATE's array after the region. -/
theorem final_r (c : Dev nD) : (dat1 V c).arrAt 10 cfg1.N
    = gate (V c main_v0) (V c main_arg1) (V c main_arg2) (V c main_arg7) (V c main_arg8) (V c main_arg9) :=
  (dat1 V c).arrAt_eq_of_cover 10 _ (fun t _ => flushed_r V c t) cover_r

end

end Cert.KernelIdeal.ValG
end
-- ==== Proof.KState.lean ====
/-
  The third region: the candidate state and the new state `hp = (1 - z) * h0 + z * n`.

  The region runs over 16 grid points. At point `t` its body sees the whole of `f` and `hg0`, rows
  `t * 256 … t * 256 + 255` of `Wxn` and `Wgpn`, and columns `t * 256 …` of `r`, `h0` and `z`. It forms
  `n = tanh (f · Wxnᵀ + hg0 · Wgpnᵀ + r * h0)` on that block of columns and stores `(1 - z) * h0 + z * n`, written
  back as columns `t * 256 …` of the result. The 16 blocks tile the result, which ends holding
  `newState f hg0 r h0 z Wxn Wgpn` of the arrays the region was entered with.
-/
import proofs.«169383_j69647189672188_1_alg».proof.Proof.Gen.KernelIdeal.Frame
import proofs.«169383_j69647189672188_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ValH

open Cert.KernelIdeal Cert.KernelIdeal.Gen Cert.Gru
open Idealize.ShloMosaic Idealize.ShloMosaic.TcCoe Idealize.SL.Sem
open Idealize.ShloMosaic.ValueIdx Idealize.ShloMosaic.TransposedDot
open Idealize.ShloMosaic.Pipeline (Dat)

/-- The zero offsets of a whole-block access, however they are spelt. -/
theorem hz : (![0, 0] : Fin 2 → Nat) = fun _ => 0 := funext fun a => by fin_cases a <;> rfl

/-- The region's products contract the last axis of both operands. -/
theorem dims2 : dot_S32x4096_S256x4096_S32x256_1_1_0_0_n_n = dims 32 4096 256 Facts₀.dot_S32x4096_S256x4096_S32x256_1_1_0_0_n_n_wf := rfl

/-- THE BODY AT AN INDEX: with `f`, `hg0` whole, the two weights' rows `n * 256 …`, and the blocks of columns
    `n * 256 …` of `r`, `h0` (loaded twice) and `z`, the stored value at `(p, q)` is
    `(1 - z) * h0 + z * tanh (f · Wxnᵀ + hg0 · Wgpnᵀ + r * h0)` at `(p, n * 256 + q)`; the constant one is the number
    its 32-bit word denotes. -/
theorem pay_h (F0 HG R H0 Z : Act) (Wa Wb : Wt) (x0 x1 : Vec Ideal S32x4096 .f32) (x5 x6 : Vec Ideal S256x4096 .f32)
    (x2 x3 x4 x3' : Vec Ideal S32x256 .f32) (n : Nat) (hn : ∀ q : Fin 256, n * 256 + q.val < 4096)
    (h0 : ∀ (p : Fin 32) (k : Fin 4096), x0 (ix2 p k) = F0 (ix2 p k))
    (h1 : ∀ (p : Fin 32) (k : Fin 4096), x1 (ix2 p k) = HG (ix2 p k))
    (h5 : ∀ (q : Fin 256) (k : Fin 4096), x5 (ix2 q k) = Wa (ix2 ⟨n * 256 + q.val, hn q⟩ k))
    (h6 : ∀ (q : Fin 256) (k : Fin 4096), x6 (ix2 q k) = Wb (ix2 ⟨n * 256 + q.val, hn q⟩ k))
    (h2 : ∀ (p : Fin 32) (q : Fin 256), x2 (ix2 p q) = R (ix2 p ⟨n * 256 + q.val, hn q⟩))
    (h3 : ∀ (p : Fin 32) (q : Fin 256), x3 (ix2 p q) = H0 (ix2 p ⟨n * 256 + q.val, hn q⟩))
    (h4 : ∀ (p : Fin 32) (q : Fin 256), x4 (ix2 p q) = Z (ix2 p ⟨n * 256 + q.val, hn q⟩))
    (h3' : ∀ (p : Fin 32) (q : Fin 256), x3' (ix2 p q) = H0 (ix2 p ⟨n * 256 + q.val, hn q⟩)) (p : Fin 32) (q : Fin 256) :
    k2_pay1 (F := Ideal) x0 x1 x5 x6 x2 x3 x4 x3' (ix2 p q) = newState F0 HG R H0 Z Wa Wb (ix2 p ⟨n * 256 + q.val, hn q⟩) := by
  unfold k2_pay1
  simp only [shapeCast_self]
  rw [dims2]
  exact congrArg₂ (· + ·)
    (congrArg₂ (· * ·) (congrArg₂ (· - ·) one_f32 (h4 p q)) (h3' p q))
    (congrArg₂ (· * ·) (h4 p q) (congrArg Ideal.tanh (congrArg₂ (· + ·) (congrArg₂ (· + ·)
      (matmul_block (M := 32) (K := 4096) (N := 4096) (B := 256) _ none F0 Wa _ _ n hn h0 h5 p q)
      (matmul_block (M := 32) (K := 4096) (N := 4096) (B := 256) _ none HG Wb _ _ n hn h1 h6 p q))
      (congrArg₂ (· * ·) (h2 p q) (h3 p q)))))

/-- The eight index maps over the 16 grid points: `f` and `hg0` are whole blocks, `r`, `h0`, `z` and the output move
    right by blocks of 256 columns, the two weights move down by blocks of 256 rows. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_4.index t (0 : Fin 2) = 0 ∧ win2_4.index t (1 : Fin 2) = t.val
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = 0 ∧ win2_7.index t (1 : Fin 2) = t.val :=
  (by decide +kernel : ∀ t : Fin grid2.N, _)

section
variable (V : (c : Dev nD) → (b : Ref sig .tc) → Buf (Elt Ideal) ((c : Thread nD τ).loc b))

/-! Each window's block at a point, read where its index map puts it. -/

theorem rd2_0 (c : Dev nD) (t : Fin cfg2.N) (p : Fin 32) (k : Fin 4096) :
    iblk2 V c 0 t (ix2 p k) = V c main_v0 (ix2 p k) := by
  obtain ⟨e0, e1, e2, e3, e4, e5, e6, e7, e8, e9, e10, e11, e12, e13, e14, e15⟩ := idx_facts t
  show V c main_v0 (((cfg2.win 0).blk t).view.emb (ix2 p k)) = V c main_v0 (ix2 p k)
  refine congrArg (V c main_v0) (funext fun a => Fin.ext ?_)
  match a with
  | ⟨0, _⟩ => show win2_0.index t (0 : Fin 2) * 32 + 1 * p.val = p.val; omega
  | ⟨1, _⟩ => show win2_0.index t (1 : Fin 2) * 4096 + 1 * k.val = k.val; omega

theorem rd2_1 (c : Dev nD) (t : Fin cfg2.N) (p : Fin 32) (k : Fin 4096) :
    iblk2 V c 1 t (ix2 p k) = V c main_arg2 (ix2 p k) := by
  obtain ⟨e0, e1, e2, e3, e4, e5, e6, e7, e8, e9, e10, e11, e12, e13, e14, e15⟩ := idx_facts t
  show V c main_arg2 (((cfg2.win 1).blk t).view.emb (ix2 p k)) = V c main_arg2 (ix2 p k)
  refine congrArg (V c main_arg2) (funext fun a => Fin.ext ?_)
  match a with
  | ⟨0, _⟩ => show win2_1.index t (0 : Fin 2) * 32 + 1 * p.val = p.val; omega
  | ⟨1, _⟩ => show win2_1.index t (1 : Fin 2) * 4096 + 1 * k.val = k.val; omega

theorem rd2_2 (c : Dev nD) (t : Fin cfg2.N) (hn : ∀ q : Fin 256, t.val * 256 + q.val < 4096) (p : Fin 32) (q : Fin 256) :
    iblk2 V c 2 t (ix2 p q) = V c main_v1_1 (ix2 p ⟨t.val * 256 + q.val, hn q⟩) := by
  obtain ⟨e0, e1, e2, e3, e4, e5, e6, e7, e8, e9, e10, e11, e12, e13, e14, e15⟩ := idx_facts t
  show V c main_v1_1 (((cfg2.win 2).blk t).view.emb (ix2 p q)) = V c main_v1_1 (ix2 p ⟨t.val * 256 + q.val, hn q⟩)
  refine congrArg (V c main_v1_1) (funext fun a => Fin.ext ?_)
  match a with
  | ⟨0, _⟩ => show win2_2.index t (0 : Fin 2) * 32 + 1 * p.val = p.val; omega
  | ⟨1, _⟩ => show win2_2.index t (1 : Fin 2) * 256 + 1 * q.val = t.val * 256 + q.val; omega

theorem rd2_3 (c : Dev nD) (t : Fin cfg2.N) (hn : ∀ q : Fin 256, t.val * 256 + q.val < 4096) (p : Fin 32) (q : Fin 256) :
    iblk2 V c 3 t (ix2 p q) = V c main_arg1 (ix2 p ⟨t.val * 256 + q.val, hn q⟩) := by
  obtain ⟨e0, e1, e2, e3, e4, e5, e6, e7, e8, e9, e10, e11, e12, e13, e14, e15⟩ := idx_facts t
  show V c main_arg1 (((cfg2.win 3).blk t).view.emb (ix2 p q)) = V c main_arg1 (ix2 p ⟨t.val * 256 + q.val, hn q⟩)
  refine congrArg (V c main_arg1) (funext fun a => Fin.ext ?_)
  match a with
  | ⟨0, _⟩ => show win2_3.index t (0 : Fin 2) * 32 + 1 * p.val = p.val; omega
  | ⟨1, _⟩ => show win2_3.index t (1 : Fin 2) * 256 + 1 * q.val = t.val * 256 + q.val; omega

theorem rd2_4 (c : Dev nD) (t : Fin cfg2.N) (hn : ∀ q : Fin 256, t.val * 256 + q.val < 4096) (p : Fin 32) (q : Fin 256) :
    iblk2 V c 4 t (ix2 p q) = V c main_v1_0 (ix2 p ⟨t.val * 256 + q.val, hn q⟩) := by
  obtain ⟨e0, e1, e2, e3, e4, e5, e6, e7, e8, e9, e10, e11, e12, e13, e14, e15⟩ := idx_facts t
  show V c main_v1_0 (((cfg2.win 4).blk t).view.emb (ix2 p q)) = V c main_v1_0 (ix2 p ⟨t.val * 256 + q.val, hn q⟩)
  refine congrArg (V c main_v1_0) (funext fun a => Fin.ext ?_)
  match a with
  | ⟨0, _⟩ => show win2_4.index t (0 : Fin 2) * 32 + 1 * p.val = p.val; omega
  | ⟨1, _⟩ => show win2_4.index t (1 : Fin 2) * 256 + 1 * q.val = t.val * 256 + q.val; omega

theorem rd2_5 (c : Dev nD) (t : Fin cfg2.N) (hn : ∀ q : Fin 256, t.val * 256 + q.val < 4096) (q : Fin 256) (k : Fin 4096) :
    iblk2 V c 5 t (ix2 q k) = V c main_arg10 (ix2 ⟨t.val * 256 + q.val, hn q⟩ k) := by
  obtain ⟨e0, e1, e2, e3, e4, e5, e6, e7, e8, e9, e10, e11, e12, e13, e14, e15⟩ := idx_facts t
  show V c main_arg10 (((cfg2.win 5).blk t).view.emb (ix2 q k)) = V c main_arg10 (ix2 ⟨t.val * 256 + q.val, hn q⟩ k)
  refine congrArg (V c main_arg10) (funext fun a => Fin.ext ?_)
  match a with
  | ⟨0, _⟩ => show win2_5.index t (0 : Fin 2) * 256 + 1 * q.val = t.val * 256 + q.val; omega
  | ⟨1, _⟩ => show win2_5.index t (1 : Fin 2) * 4096 + 1 * k.val = k.val; omega

theorem rd2_6 (c : Dev nD) (t : Fin cfg2.N) (hn : ∀ q : Fin 256, t.val * 256 + q.val < 4096) (q : Fin 256) (k : Fin 4096) :
    iblk2 V c 6 t (ix2 q k) = V c main_arg11 (ix2 ⟨t.val * 256 + q.val, hn q⟩ k) := by
  obtain ⟨e0, e1, e2, e3, e4, e5, e6, e7, e8, e9, e10, e11, e12, e13, e14, e15⟩ := idx_facts t
  show V c main_arg11 (((cfg2.win 6).blk t).view.emb (ix2 q k)) = V c main_arg11 (ix2 ⟨t.val * 256 + q.val, hn q⟩ k)
  refine congrArg (V c main_arg11) (funext fun a => Fin.ext ?_)
  match a with
  | ⟨0, _⟩ => show win2_6.index t (0 : Fin 2) * 256 + 1 * q.val = t.val * 256 + q.val; omega
  | ⟨1, _⟩ => show win2_6.index t (1 : Fin 2) * 4096 + 1 * k.val = k.val; omega

/-! The output block's index inside the array. -/

theorem emb2_7 (t : Fin cfg2.N) (hn : ∀ q : Fin 256, t.val * 256 + q.val < 4096) (p : Fin 32) (q : Fin 256) :
    ((cfg2.win 7).blk t).view.emb (ix2 p q) = ix2 p ⟨t.val * 256 + q.val, hn q⟩ := by
  obtain ⟨e0, e1, e2, e3, e4, e5, e6, e7, e8, e9, e10, e11, e12, e13, e14, e15⟩ := idx_facts t
  refine funext fun a => Fin.ext ?_
  match a with
  | ⟨0, _⟩ => show win2_7.index t (0 : Fin 2) * 32 + 1 * p.val = p.val; omega
  | ⟨1, _⟩ => show win2_7.index t (1 : Fin 2) * 256 + 1 * q.val = t.val * 256 + q.val; omega

/-- WHAT POINT `t` WRITES BACK is block `t` of the new state of the arrays as the region finds them. -/
theorem flushed_h (c : Dev nD) (t : Fin cfg2.N) :
    (dat2 V c).flushed 7 t = ((cfg2.win 7).blk t).view.read (Elt Ideal)
      (newState (V c main_v0) (V c main_arg2) (V c main_v1_1) (V c main_arg1) (V c main_v1_0) (V c main_arg10) (V c main_arg11)) := by
  show (cfg2.win 7).cut (grid2.coords t) ((dat2 V c).after 7 t) = _
  rw [after2_7]
  unfold out2_7
  rw [View.canon_unit_zero hz]
  simp only [View.ld_unit_zero (S := S32x4096) hz, View.ld_unit_zero (S := S256x4096) hz, View.ld_unit_zero (S := S32x256) hz]
  have ht : t.val < 16 := t.isLt
  have hn : ∀ q : Fin 256, t.val * 256 + q.val < 4096 := fun q => by have := q.isLt; omega
  funext j
  obtain ⟨p, q, rfl⟩ : ∃ (p : Fin 32) (q : Fin 256), j = ix2 p q := ⟨j 0, j 1, eq_ix2 j⟩
  show k2_pay1 (iblk2 V c 0 t) (iblk2 V c 1 t) (iblk2 V c 5 t) (iblk2 V c 6 t) (iblk2 V c 2 t) (iblk2 V c 3 t) (iblk2 V c 4 t) (iblk2 V c 3 t) (ix2 p q)
    = newState (V c main_v0) (V c main_arg2) (V c main_v1_1) (V c main_arg1) (V c main_v1_0) (V c main_arg10) (V c main_arg11)
        (((cfg2.win 7).blk t).view.emb (ix2 p q))
  rw [emb2_7 t hn p q]
  exact pay_h (V c main_v0) (V c main_arg2) (V c main_v1_1) (V c main_arg1) (V c main_v1_0) (V c main_arg10) (V c main_arg11)
    (iblk2 V c 0 t) (iblk2 V c 1 t) (iblk2 V c 5 t) (iblk2 V c 6 t) (iblk2 V c 2 t) (iblk2 V c 3 t) (iblk2 V c 4 t) (iblk2 V c 3 t) t.val hn
    (rd2_0 V c t) (rd2_1 V c t) (rd2_5 V c t hn) (rd2_6 V c t hn) (rd2_2 V c t hn) (rd2_3 V c t hn) (rd2_4 V c t hn) (rd2_3 V c t hn) p q

/-! The 16 output blocks cover the array: column `j` lies in block `j / 256`. -/

theorem mem_blk_h (t : Fin cfg2.N) (i : S32x4096.Idx) :
    i ∈ ((cfg2.win 7).blk t).view.set ↔ ∀ a : Fin 2, win2_7.index t a * S32x256.size a ≤ (i a).val
      ∧ (i a).val < win2_7.index t a * S32x256.size a + S32x256.size a := by
  show i ∈ ((View.whole main_v2).slice (win2_7.rect t)).set ↔ _
  rw [View.set_slice_whole, Rect.mem_set_unit]
  exact Iff.rfl

theorem cover_h (i : S32x4096.Idx) :
    ∃ t : Fin cfg2.N, (cfg2.win 7).flush t = true ∧ i ∈ ((cfg2.win 7).blk t).view.set := by
  have hi0 : (i 0).val < 32 := (i 0).isLt
  have hi1 : (i 1).val < 4096 := (i 1).isLt
  obtain ⟨tt, htt⟩ : ∃ tt : Fin cfg2.N, tt.val = (i 1).val / 256 :=
    ⟨⟨(i 1).val / 256, show (i 1).val / 256 < 16 by omega⟩, rfl⟩
  obtain ⟨e0, e1, e2, e3, e4, e5, e6, e7, e8, e9, e10, e11, e12, e13, e14, e15⟩ := idx_facts tt
  refine ⟨tt, flush2_7 tt, ?_⟩
  rw [mem_blk_h]
  intro a
  match a with
  | ⟨0, _⟩ =>
    show win2_7.index tt (0 : Fin 2) * 32 ≤ (i 0).val ∧ (i 0).val < win2_7.index tt (0 : Fin 2) * 32 + 32
    omega
  | ⟨1, _⟩ =>
    show win2_7.index tt (1 : Fin 2) * 256 ≤ (i 1).val ∧ (i 1).val < win2_7.index tt (1 : Fin 2) * 256 + 256
    omega

/-- THE RESULT ARRAY after the region: the new state of the arrays the region was entered with. -/
theorem final_h (c : Dev nD) : (dat2 V c).arrAt 7 cfg2.N
    = newState (V c main_v0) (V c main_arg2) (V c main_v1_1) (V c main_arg1) (V c main_v1_0) (V c main_arg10) (V c main_arg11) :=
  (dat2 V c).arrAt_eq_of_cover 7 _ (fun t _ => flushed_h V c t) cover_h

end

end Cert.KernelIdeal.ValH
end
-- ==== Proof.KValue.lean ====
/-
  The result array after the three regions, as one function of the launch memory.

  The buffers at the boundaries between the regions are a fold from the launch memory: a region's arrays at what its
  write-backs leave, every other buffer as it was. Walking the fold back: the first region leaves `f` in its output
  and no argument is written, so the second region is entered with `f` and the launched `h0`, `hg0` and gate weights,
  and leaves `z` and `r`; the third is entered with `f`, `r`, `z` and the launched `hg0`, `h0`, `Wxn`, `Wgpn`, and
  leaves the new state — the cell of the twelve launched arrays.
-/
import proofs.«169383_j69647189672188_1_alg».proof.Proof.Gen.KernelIdeal.Frame
import proofs.«169383_j69647189672188_1_alg».proof.Proof.Spec
import proofs.«169383_j69647189672188_1_alg».proof.Proof.KFilter
import proofs.«169383_j69647189672188_1_alg».proof.Proof.KGates
import proofs.«169383_j69647189672188_1_alg».proof.Proof.KState

set_option maxRecDepth 16384

noncomputable section

namespace Cert.KernelIdeal.Chain

open Cert.KernelIdeal Cert.KernelIdeal.Gen Cert.Gru
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## After the first region: `f`, and the arguments as launched -/

theorem V1_f : V1 m ρ c main_v0 = filt (m ((c : Thread nD τ).loc main_arg0)) (m ((c : Thread nD τ).loc main_arg3)) :=
  (W1_arr m ρ c 2).trans (ValF.final_f (V0 m ρ) c)

theorem V1_arg1 : V1 m ρ c main_arg1 = m ((c : Thread nD τ).loc main_arg1) :=
  W1_of_ne m ρ c main_arg1 (by decide)
theorem V1_arg2 : V1 m ρ c main_arg2 = m ((c : Thread nD τ).loc main_arg2) :=
  W1_of_ne m ρ c main_arg2 (by decide)
theorem V1_arg4 : V1 m ρ c main_arg4 = m ((c : Thread nD τ).loc main_arg4) :=
  W1_of_ne m ρ c main_arg4 (by decide)
theorem V1_arg5 : V1 m ρ c main_arg5 = m ((c : Thread nD τ).loc main_arg5) :=
  W1_of_ne m ρ c main_arg5 (by decide)
theorem V1_arg6 : V1 m ρ c main_arg6 = m ((c : Thread nD τ).loc main_arg6) :=
  W1_of_ne m ρ c main_arg6 (by decide)
theorem V1_arg7 : V1 m ρ c main_arg7 = m ((c : Thread nD τ).loc main_arg7) :=
  W1_of_ne m ρ c main_arg7 (by decide)
theorem V1_arg8 : V1 m ρ c main_arg8 = m ((c : Thread nD τ).loc main_arg8) :=
  W1_of_ne m ρ c main_arg8 (by decide)
theorem V1_arg9 : V1 m ρ c main_arg9 = m ((c : Thread nD τ).loc main_arg9) :=
  W1_of_ne m ρ c main_arg9 (by decide)
theorem V1_arg10 : V1 m ρ c main_arg10 = m ((c : Thread nD τ).loc main_arg10) :=
  W1_of_ne m ρ c main_arg10 (by decide)
theorem V1_arg11 : V1 m ρ c main_arg11 = m ((c : Thread nD τ).loc main_arg11) :=
  W1_of_ne m ρ c main_arg11 (by decide)

/-! ## After the second region: `f` kept, `z` and `r` written, the arguments as launched -/

theorem V2_f : V2 m ρ c main_v0 = filt (m ((c : Thread nD τ).loc main_arg0)) (m ((c : Thread nD τ).loc main_arg3)) :=
  ((W2_arr m ρ c 0).trans (((dat1 (V1 m ρ) c).arrAt_in 0 rfl _).trans (A_eq1 (V1 m ρ) c 0))).trans (V1_f m ρ c)

theorem V2_arg1 : V2 m ρ c main_arg1 = m ((c : Thread nD τ).loc main_arg1) :=
  ((W2_arr m ρ c 1).trans (((dat1 (V1 m ρ) c).arrAt_in 1 rfl _).trans (A_eq1 (V1 m ρ) c 1))).trans (V1_arg1 m ρ c)

theorem V2_arg2 : V2 m ρ c main_arg2 = m ((c : Thread nD τ).loc main_arg2) :=
  ((W2_arr m ρ c 2).trans (((dat1 (V1 m ρ) c).arrAt_in 2 rfl _).trans (A_eq1 (V1 m ρ) c 2))).trans (V1_arg2 m ρ c)

theorem V2_arg10 : V2 m ρ c main_arg10 = m ((c : Thread nD τ).loc main_arg10) :=
  (W2_of_ne m ρ c main_arg10 (by decide)).trans (V1_arg10 m ρ c)

theorem V2_arg11 : V2 m ρ c main_arg11 = m ((c : Thread nD τ).loc main_arg11) :=
  (W2_of_ne m ρ c main_arg11 (by decide)).trans (V1_arg11 m ρ c)

theorem V2_z : V2 m ρ c main_v1_0
    = gate (filt (m ((c : Thread nD τ).loc main_arg0)) (m ((c : Thread nD τ).loc main_arg3))) (m ((c : Thread nD τ).loc main_arg1)) (m ((c : Thread nD τ).loc main_arg2)) (m ((c : Thread nD τ).loc main_arg4)) (m ((c : Thread nD τ).loc main_arg5)) (m ((c : Thread nD τ).loc main_arg6)) := by
  refine ((W2_arr m ρ c 9).trans (ValG.final_z (V1 m ρ) c)).trans ?_
  rw [V1_f, V1_arg1, V1_arg2, V1_arg4, V1_arg5, V1_arg6]

theorem V2_r : V2 m ρ c main_v1_1
    = gate (filt (m ((c : Thread nD τ).loc main_arg0)) (m ((c : Thread nD τ).loc main_arg3))) (m ((c : Thread nD τ).loc main_arg1)) (m ((c : Thread nD τ).loc main_arg2)) (m ((c : Thread nD τ).loc main_arg7)) (m ((c : Thread nD τ).loc main_arg8)) (m ((c : Thread nD τ).loc main_arg9)) := by
  refine ((W2_arr m ρ c 10).trans (ValG.final_r (V1 m ρ) c)).trans ?_
  rw [V1_f, V1_arg1, V1_arg2, V1_arg7, V1_arg8, V1_arg9]

/-! ## After the third region: the result -/

/-- THE RESULT ARRAY at the last boundary is the cell of the twelve launched arrays. -/
theorem W3_result : W3 m ρ c (Proc.devRef .tc main_v2)
    = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W3_arr m ρ c 7).trans (ValH.final_h (V2 m ρ) c)).trans ?_
  rw [V2_f, V2_arg2, V2_r, V2_arg1, V2_z, V2_arg10, V2_arg11]
  rfl

end Cert.KernelIdeal.Chain

end
-- ==== Proof.RefStages.lean ====
/-
  The reference program's value, stage by stage, is the gated recurrent cell of the specification.

  Every matrix product of the reference is a plain product `a · V` whose right operand `V` is the transpose of a weight
  `W` stored outputs × inputs, so it is the linear layer `lin a W = a · Wᵀ`. The remaining stages act element by
  element: a sum, a product, a difference, a hyperbolic tangent, and the logistic function spelled out as
  `1 / (1 + e^(-u))` with the constant one given by its 32-bit word. Each stage is identified with the corresponding
  array of the specification as a WHOLE array; the sums over the 4096 contraction coordinates are never opened.
-/
import proofs.«169383_j69647189672188_1_alg».proof.Proof.Gen.ReferenceIdeal.Read
import proofs.«169383_j69647189672188_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.ShloMosaic.TransposedDot Cert.Gru

/-- An activation array (32 × 4096) as the stages type it. -/
abbrev ActC : Type := (⟨S32x4096, .f32⟩ : BufTy).Contents (Elt Ideal)
/-- A weight array (4096 × 4096) as the stages type it. -/
abbrev WtC : Type := (⟨S4096x4096, .f32⟩ : BufTy).Contents (Elt Ideal)

/-! ## The linear layer -/

/-- The plain product of `x` with the transpose of `W` is `x · Wᵀ`: the transposed array at `(k, c)` is `W (c, k)`. -/
theorem lin_host (x : ActC) (W : WtC) :
    Host.dotGeneral (F := Ideal) (φ₁ := .f32) (φ₂ := .f32) dot_S32x4096_S4096x4096_S32x4096_1_0_0_1_n_n none x
      (transpose S4096x4096 [1, 0] W transposes_S4096x4096_S4096x4096_1_0) = lin x W := by
  simp only [Host.dotGeneral]
  exact dotGeneral_transposed (M := 32) (K := 4096) (N := 4096) dot_S32x4096_S4096x4096_S32x4096_1_0_0_1_n_n_wf none _ x _ W
    (fun k c => (val_main_v0_apply (F := Ideal) W (ix2 k c)).trans
      (congrArg W (funext fun a => match a with | ⟨0, _⟩ => rfl | ⟨1, _⟩ => rfl)))

/-! ## The input filter `f = tanh (x · W_mlpᵀ)` -/

theorem v1_eq (x0 : ActC) (x3 : WtC) : val_main_v1 (F := Ideal) x0 x3 = lin x0 x3 := by
  unfold val_main_v1 val_main_v0
  exact lin_host _ _

theorem v2_eq (x0 : ActC) (x3 : WtC) : val_main_v2 (F := Ideal) x0 x3 = filt x0 x3 := by
  funext i
  rw [val_main_v2_apply, v1_eq]
  rfl

/-! ## The update gate `z` -/

theorem v4_eq (x0 : ActC) (x3 x4 : WtC) : val_main_v4 (F := Ideal) x0 x3 x4 = lin (filt x0 x3) x4 := by
  unfold val_main_v4 val_main_v3
  rw [v2_eq]
  exact lin_host _ _

theorem v6_eq (x1 : ActC) (x5 : WtC) : val_main_v6 (F := Ideal) x1 x5 = lin x1 x5 := by
  unfold val_main_v6 val_main_v5
  exact lin_host _ _

theorem v9_eq (x2 : ActC) (x6 : WtC) : val_main_v9 (F := Ideal) x2 x6 = lin x2 x6 := by
  unfold val_main_v9 val_main_v8
  exact lin_host _ _

/-- `1 / (1 + e^(-u))` at `u` the sum of the three products, the ones read off their words, is the logistic gate. -/
theorem v16_eq (x0 x1 x2 : ActC) (x3 x4 x5 x6 : WtC) :
    val_main_v16 (F := Ideal) x0 x1 x2 x3 x4 x5 x6 = gate (filt x0 x3) x1 x2 x4 x5 x6 := by
  funext i
  rw [val_main_v16_apply, val_main_v15_apply, val_main_cst_0_apply, val_main_v14_apply, val_main_v13_apply,
    val_main_cst_apply, val_main_v12_apply, val_main_v11_apply, val_main_v10_apply, val_main_v7_apply,
    v4_eq, v6_eq, v9_eq]
  simp only [Ideal.ofBits_def, one_f32]
  rfl

/-! ## The reset gate `r` -/

theorem v18_eq (x0 : ActC) (x3 x7 : WtC) : val_main_v18 (F := Ideal) x0 x3 x7 = lin (filt x0 x3) x7 := by
  unfold val_main_v18 val_main_v17
  rw [v2_eq]
  exact lin_host _ _

theorem v20_eq (x1 : ActC) (x8 : WtC) : val_main_v20 (F := Ideal) x1 x8 = lin x1 x8 := by
  unfold val_main_v20 val_main_v19
  exact lin_host _ _

theorem v23_eq (x2 : ActC) (x9 : WtC) : val_main_v23 (F := Ideal) x2 x9 = lin x2 x9 := by
  unfold val_main_v23 val_main_v22
  exact lin_host _ _

theorem v30_eq (x0 x1 x2 : ActC) (x3 x7 x8 x9 : WtC) :
    val_main_v30 (F := Ideal) x0 x1 x2 x3 x7 x8 x9 = gate (filt x0 x3) x1 x2 x7 x8 x9 := by
  funext i
  rw [val_main_v30_apply, val_main_v29_apply, val_main_cst_2_apply, val_main_v28_apply, val_main_v27_apply,
    val_main_cst_1_apply, val_main_v26_apply, val_main_v25_apply, val_main_v24_apply, val_main_v21_apply,
    v18_eq, v20_eq, v23_eq]
  simp only [Ideal.ofBits_def, one_f32]
  rfl

/-! ## The candidate state `n = tanh (f · Wxnᵀ + hg0 · Wgpnᵀ + r * h0)` -/

theorem v32_eq (x0 : ActC) (x3 x10 : WtC) : val_main_v32 (F := Ideal) x0 x3 x10 = lin (filt x0 x3) x10 := by
  unfold val_main_v32 val_main_v31
  rw [v2_eq]
  exact lin_host _ _

theorem v34_eq (x2 : ActC) (x11 : WtC) : val_main_v34 (F := Ideal) x2 x11 = lin x2 x11 := by
  unfold val_main_v34 val_main_v33
  exact lin_host _ _

theorem v38_eq (x0 x1 x2 : ActC) (x3 x7 x8 x9 x10 x11 : WtC) :
    val_main_v38 (F := Ideal) x0 x1 x2 x3 x7 x8 x9 x10 x11
      = fun i => Ideal.tanh (lin (filt x0 x3) x10 i + lin x2 x11 i + gate (filt x0 x3) x1 x2 x7 x8 x9 i * x1 i) := by
  funext i
  rw [val_main_v38_apply, val_main_v37_apply, val_main_v35_apply, val_main_v36_apply, v32_eq, v34_eq, v30_eq]
  rfl

/-! ## The new state `(1 - z) * h0 + z * n` -/

theorem result_eq (x0 x1 x2 : (⟨S32x4096, .f32⟩ : BufTy).Contents (Elt Ideal)) (x3 x4 x5 x6 x7 x8 x9 x10 x11 : (⟨S4096x4096, .f32⟩ : BufTy).Contents (Elt Ideal)) :
    val_main_v43 (F := Ideal) x0 x1 x2 x3 x4 x5 x6 x7 x8 x9 x10 x11 = cell x0 x1 x2 x3 x4 x5 x6 x7 x8 x9 x10 x11 := by
  funext i
  rw [val_main_v43_apply, val_main_v41_apply, val_main_v40_apply, val_main_v39_apply, val_main_cst_3_apply,
    val_main_v42_apply, v16_eq, v38_eq]
  simp only [Ideal.ofBits_def, one_f32]
  rfl

end Cert.ReferenceIdeal.RefValue

end
-- ==== Proof.lean ====
/-
  The certificate's claims for a gated recurrent cell computed by three pipelined regions against its one-pass
  reference.

  Both programs compute, from the twelve argument arrays, `hp = (1 - z) * h0 + z * tanh (f · Wxnᵀ + hg0 · Wgpnᵀ + r * h0)`
  with `f = tanh (x · W_mlpᵀ)` and the gates `z`, `r` logistic functions of three products each (Proof/Spec.lean). The
  kernel program tiles the 4096 output features of every product over a grid and hands `f`, `z`, `r` from region to
  region through whole arrays; the reference forms each product at once against the transposed weight. On the extended
  reals a change of float format is the identity, a product into a zero accumulator is the plain sum, and the logistic
  function IS `1 / (1 + e^(-u))`, so the two results agree entry by entry with the sums taken in the same order on both
  sides: no law of the extended reals beyond the definitions is used, and the precondition is never opened.

  The kernel's side: the run with its result named (Proof/KRun.lean), each region's output array as a function of the
  arrays it was entered with (Proof/KFilter.lean, KGates.lean, KState.lean), and the fold through the three regions
  (Proof/KValue.lean). The reference's side: its generated run, and its stages identified with the specification
  (Proof/RefStages.lean). The idealization rewrote nothing, so `preserves` is trivial.
-/
import proofs.«169383_j69647189672188_1_alg».proof.Defs
import proofs.«169383_j69647189672188_1_alg».proof.Proof.Gen.Kernel
import proofs.«169383_j69647189672188_1_alg».proof.Proof.Gen.Kernel.Skeleton
import proofs.«169383_j69647189672188_1_alg».proof.Proof.Gen.Kernel.Launch
import proofs.«169383_j69647189672188_1_alg».proof.Proof.Gen.Kernel.Points
import proofs.«169383_j69647189672188_1_alg».proof.Proof.Gen.Kernel.Frame
import proofs.«169383_j69647189672188_1_alg».proof.Proof.Gen.KernelIdeal
import proofs.«169383_j69647189672188_1_alg».proof.Proof.Gen.KernelIdeal.Skeleton
import proofs.«169383_j69647189672188_1_alg».proof.Proof.Gen.KernelIdeal.Launch
import proofs.«169383_j69647189672188_1_alg».proof.Proof.Gen.KernelIdeal.Points
import proofs.«169383_j69647189672188_1_alg».proof.Proof.Gen.KernelIdeal.Frame
import proofs.«169383_j69647189672188_1_alg».proof.Proof.Gen.ReferenceIdeal
import proofs.«169383_j69647189672188_1_alg».proof.Proof.Gen.ReferenceIdeal.Run
import proofs.«169383_j69647189672188_1_alg».proof.Proof.Gen.ReferenceIdeal.Read
import proofs.«169383_j69647189672188_1_alg».proof.Proof.Gen.Pre_finite_inputs
import proofs.«169383_j69647189672188_1_alg».proof.Proof.Spec
import proofs.«169383_j69647189672188_1_alg».proof.Proof.KRun
import proofs.«169383_j69647189672188_1_alg».proof.Proof.KValue
import proofs.«169383_j69647189672188_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the twelve arguments both programs end with the cell of those arguments in their result
    arrays: the kernel program by the fold through its three regions, the reference by its stages. -/
theorem algebraic : Cert.algebraic_KernelIdeal_ReferenceIdeal := by
  intro m ρ m' ρ' _ hagree
  refine ⟨fun c => Cert.Gru.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.W3_result m ρ c), (h c).2⟩)
      (Cert.KernelIdeal.Run.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11⟩ := hagree c
    rw [(h c).1, Cert.ReferenceIdeal.Read.val_main_v43_eq, Cert.ReferenceIdeal.RefValue.result_eq,
      a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
